-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S2048 : Shape := ⟨1, ![2048]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x4096 .f32) (main_arg1 : FVec F S2048 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S16384x4096 : Shape := ⟨2, ![16384, 4096]⟩
abbrev S2048 : Shape := ⟨1, ![2048]⟩
abbrev S256x4096 : Shape := ⟨2, ![256, 4096]⟩
abbrev S256x2048 : Shape := ⟨2, ![256, 2048]⟩
abbrev S1x2048 : Shape := ⟨2, ![1, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S2048, .f32⟩
  | .hbm, ⟨2, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S2048, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x2048_0_0 : ∀ a, (![0, 0] : Fin 2 → Nat) a + S256x2048.size a ≤ S256x4096.size a
  h_S256x2048 : 0 < S256x2048.numel
  inb_S256x4096_S256x2048_0_2048 : ∀ a, (![0, 2048] : Fin 2 → Nat) a + S256x2048.size a ≤ S256x4096.size a
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S2048 : Shape := ⟨1, ![2048]⟩
abbrev S16384x2048 : Shape := ⟨2, ![16384, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  slices_S16384x4096_S16384x2048_0_0 : S16384x4096.Slices ![0, 0] S16384x2048
  slices_S16384x4096_S16384x2048_0_2048 : S16384x4096.Slices ![0, 2048] S16384x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  concatenates_S16384x2048_S16384x2048_S16384x4096_d1 : Shape.Concatenates [S16384x2048, S16384x2048] S16384x4096 1

variable [Facts₀]

class Facts : Prop extends Facts₀ where

variable [Facts]
-- ==== Proof.HalfKick.lean ====
/-
  The map both programs compute, stated once. The array `pq` has 16384 rows of 4096 entries; a row is a pair
  (p, q) of two halves of 2048 entries each, p on columns 0 … 2047 and q on columns 2048 … 4095, and `a` is a
  vector of 2048 coefficients. The result keeps q and moves p by a "kick" that depends on q only:

      out(r, k)        = p(r, k) + a(k) · tanh(q(r, k))      for k < 2048,
      out(r, 2048 + k) = q(r, k).

  In array coordinates: at a column `k < 2048` the entry is `pq(r, k) + a(k) · tanh(pq(r, k + 2048))`, and at a
  column `k ≥ 2048` it is `pq(r, k)` itself. Nothing is summed and nothing is rearranged, so the statement holds
  for any float instance; no law of the extended reals is used.
-/
import Idealize.ShloMosaic.PureOps.Ideal
import Idealize.ShloMosaic.Lib.ValueIdx

noncomputable section

namespace Cert.HalfKick

open Idealize.ShloMosaic Idealize.ShloMosaic.ValueIdx

variable {F : FTy → Type} [FloatOps F]

/-- One entry of the moved half: `p + a · tanh q`. -/
def kick (p a q : F .f32) : F .f32 := FloatOps.addf p (FloatOps.mulf a (FloatOps.tanh q))

/-- The coefficient that belongs to a left-half column `k < 2048`. -/
abbrev coeffIdx (k : Nat) (h : k < 2048) : (⟨1, ![2048]⟩ : Shape).Idx := ix1 (⟨k, h⟩ : Fin 2048)

/-- The entry of the right half paired with the left-half entry `(r, k)`: same row, column `k + 2048`. -/
abbrev partnerIdx (r : Fin 16384) (k : Nat) (h : k < 2048) : (⟨2, ![16384, 4096]⟩ : Shape).Idx :=
  ix2 r (⟨k + 2048, by omega⟩ : Fin 4096)

/-- The whole result as one function of the two argument arrays, index by index. -/
def result (pq : (⟨2, ![16384, 4096]⟩ : Shape).Idx → F .f32) (a : (⟨1, ![2048]⟩ : Shape).Idx → F .f32) :
    (⟨2, ![16384, 4096]⟩ : Shape).Idx → F .f32 := fun i =>
  if h : (i 1).val < 2048 then
    kick (pq i) (a (coeffIdx (i 1).val h)) (pq (partnerIdx (i 0) (i 1).val h))
  else pq i

/-- On the left half the result is the kicked entry, whatever names the coefficient's and the partner's indices
    are given by, as long as their coordinates are the right ones. -/
theorem result_left (pq : (⟨2, ![16384, 4096]⟩ : Shape).Idx → F .f32) (a : (⟨1, ![2048]⟩ : Shape).Idx → F .f32)
    (i i' : (⟨2, ![16384, 4096]⟩ : Shape).Idx) (c : (⟨1, ![2048]⟩ : Shape).Idx) (h : (i 1).val < 2048)
    (hc : (c 0).val = (i 1).val) (h0 : (i' 0).val = (i 0).val) (h1 : (i' 1).val = (i 1).val + 2048) :
    result pq a i = kick (pq i) (a c) (pq i') := by
  unfold result
  rw [dif_pos h]
  have ec : coeffIdx (i 1).val h = c := by
    funext d; match d with | ⟨0, _⟩ => exact Fin.ext hc.symm
  have ei : partnerIdx (i 0) (i 1).val h = i' := by
    funext d; match d with
    | ⟨0, _⟩ => exact Fin.ext h0.symm
    | ⟨1, _⟩ => exact Fin.ext h1.symm
  rw [ec, ei]

/-- On the right half the result is the argument's entry. -/
theorem result_right (pq : (⟨2, ![16384, 4096]⟩ : Shape).Idx → F .f32) (a : (⟨1, ![2048]⟩ : Shape).Idx → F .f32)
    (i : (⟨2, ![16384, 4096]⟩ : Shape).Idx) (h : 2048 ≤ (i 1).val) : result pq a i = pq i := by
  unfold result
  rw [dif_neg (Nat.not_lt.2 h)]

end Cert.HalfKick

end
-- ==== Proof.BlockResult.lean ====
/-
  What one grid point leaves in its output block, entry by entry. A point works on a block of 256 whole rows of
  `pq` (all 4096 columns) and on the whole coefficient vector. It writes the block's left half (columns 0 … 2047)
  with `p + a · tanh q`, where p and q are the block's own left and right halves and the coefficient vector is
  turned into one row and repeated down the 256 rows, and then writes the block's right half with q unchanged. The
  two writes tile the block, so an entry is decided by which half its column lies in:

      column k < 2048 :  x(r, k) + a(k) · tanh(x(r, k + 2048)),        column k ≥ 2048 :  x(r, k),

  with x the input block. This holds for any float instance.
-/
import proofs.«167230_j47167330845364_1_alg».proof.Proof.Gen.KernelIdeal.Frame
import proofs.«167230_j47167330845364_1_alg».proof.Proof.HalfKick
import Idealize.ShloMosaic.Lib.Pipeline.Value

noncomputable section

namespace Cert.KernelIdeal.BlockResult

open Cert.KernelIdeal Cert.KernelIdeal.Gen Idealize.ShloMosaic Idealize.ShloMosaic.ValueIdx

variable {F : FTy → Type} [FloatOps F]

/-- The coefficient vector turned into a 1 × 2048 row and repeated over 256 rows, read at `(r, k)`, is the
    coefficient `k`. -/
theorem coeff_spread (v : Vec F S2048 .f32) (x : S256x2048.Idx) (c : S2048.Idx) (hc : (c 0).val = (x 1).val) :
    broadcastTo S256x2048 (shapeCast S1x2048 v shapeCasts_S2048_S1x2048) broadcasts_S1x2048_S256x2048 x = v c := by
  have hx1 : (x 1).val < 2048 := idx2_lt1 x
  rw [broadcastTo_apply _ broadcasts_S1x2048_S256x2048 x (ix2 (0 : Fin 1) (⟨(x 1).val, hx1⟩ : Fin 2048))
    (fun a => by
      match a with
      | ⟨0, _⟩ => show (0 : Nat) = if (1 : Nat) = 1 then 0 else _; rw [if_pos rfl]
      | ⟨1, _⟩ => show (x 1).val = if (2048 : Nat) = 1 then 0 else (x 1).val; rw [if_neg (by decide)])]
  rw [shapeCast_addUnit_apply ![2048] v shapeCasts_S2048_S1x2048]
  exact congrArg v (funext fun d => Fin.ext (by match d with | ⟨0, _⟩ => exact hc.symm))

/-- The value the point stores into the left half, at `(r, k)`: the kick of the left-half entry by the coefficient
    `k` and the right-half entry at the same position. -/
theorem moved_apply (p q : Vec F S256x2048 .f32) (v : Vec F S2048 .f32) (x : S256x2048.Idx) (c : S2048.Idx)
    (hc : (c 0).val = (x 1).val) :
    k0_pay1 p q v x = Cert.HalfKick.kick (p x) (v c) (q x) := by
  show FloatOps.addf (p x) (FloatOps.mulf
      (broadcastTo S256x2048 (shapeCast S1x2048 v shapeCasts_S2048_S1x2048) broadcasts_S1x2048_S256x2048 x)
      (FloatOps.tanh (q x))) = _
  exact congrArg (fun z => FloatOps.addf (p x) (FloatOps.mulf z (FloatOps.tanh (q x)))) (coeff_spread v x c hc)

/-- An entry of the block's left half after the point. `y'` is the entry 2048 columns to the right of `y`, `c` the
    coefficient of `y`'s column. -/
theorem out_left (x0 : Vec F S256x4096 .f32) (x1 : Vec F S2048 .f32) (y y' : S256x4096.Idx) (c : S2048.Idx)
    (h : (y 1).val < 2048) (hc : (c 0).val = (y 1).val) (h0 : (y' 0).val = (y 0).val)
    (h1 : (y' 1).val = (y 1).val + 2048) :
    out0_2 x0 x1 y = Cert.HalfKick.kick (x0 y) (x1 c) (x0 y') := by
  unfold out0_2
  have hy0 : (y 0).val < 256 := idx2_lt0 y
  -- the later write (the right half) does not reach this entry
  have hnot : y ∉ (r0_1 : Rect S256x4096).set := by
    rw [Rect.mem_set_unit]
    intro hm
    have h2 : (2048 : Nat) ≤ (y 1).val := (hm 1).1
    omega
  rw [View.canon_cons_of_not_mem (Val := Elt F) (⟨r0_1, View.ld x0 r0_1⟩ : View.Piece (Elt F) S256x4096 .f32)
    [⟨r0_0, k0_pay1 (View.ld x0 r0_0) (View.ld x0 r0_1) (View.ld x1 r0_2)⟩] hnot]
  -- and the earlier one does, at the same position inside the half
  let x : S256x2048.Idx := ix2 (⟨(y 0).val, hy0⟩ : Fin 256) (⟨(y 1).val, h⟩ : Fin 2048)
  have e0 : (r0_0 : Rect S256x4096).emb x = y := funext fun a => Fin.ext (by
    match a with
    | ⟨0, _⟩ => show 0 + 1 * (y 0).val = (y 0).val; omega
    | ⟨1, _⟩ => show 0 + 1 * (y 1).val = (y 1).val; omega)
  have e1 : (r0_1 : Rect S256x4096).emb x = y' := funext fun a => Fin.ext (by
    match a with
    | ⟨0, _⟩ => show 0 + 1 * (y 0).val = (y' 0).val; omega
    | ⟨1, _⟩ => show 2048 + 1 * (y 1).val = (y' 1).val; omega)
  have e2 : (r0_2 : Rect S2048).emb c = c := funext fun a => Fin.ext (by
    match a with
    | ⟨0, _⟩ => show 0 + 1 * (c 0).val = (c 0).val; omega)
  have key := View.canon_cons_emb (Val := Elt F) (e := .f32) (r0_0 : Rect S256x4096)
    (k0_pay1 (View.ld x0 r0_0) (View.ld x0 r0_1) (View.ld x1 r0_2)) [] x
  rw [e0] at key
  rw [key, moved_apply (View.ld x0 r0_0) (View.ld x0 r0_1) (View.ld x1 r0_2) x c hc]
  show Cert.HalfKick.kick (x0 ((r0_0 : Rect S256x4096).emb x)) (x1 ((r0_2 : Rect S2048).emb c))
      (x0 ((r0_1 : Rect S256x4096).emb x)) = _
  rw [e0, e1, e2]

/-- An entry of the block's right half after the point: the input block's entry. -/
theorem out_right (x0 : Vec F S256x4096 .f32) (x1 : Vec F S2048 .f32) (y : S256x4096.Idx)
    (h : 2048 ≤ (y 1).val) : out0_2 x0 x1 y = x0 y := by
  unfold out0_2
  have hy0 : (y 0).val < 256 := idx2_lt0 y
  have hy1 : (y 1).val < 4096 := idx2_lt1 y
  let x : S256x2048.Idx := ix2 (⟨(y 0).val, hy0⟩ : Fin 256) (⟨(y 1).val - 2048, by omega⟩ : Fin 2048)
  have e1 : (r0_1 : Rect S256x4096).emb x = y := funext fun a => Fin.ext (by
    match a with
    | ⟨0, _⟩ => show 0 + 1 * (y 0).val = (y 0).val; omega
    | ⟨1, _⟩ => show 2048 + 1 * ((y 1).val - 2048) = (y 1).val; omega)
  have key := View.canon_cons_emb (Val := Elt F) (e := .f32) (r0_1 : Rect S256x4096) (View.ld x0 r0_1)
    [⟨r0_0, k0_pay1 (View.ld x0 r0_0) (View.ld x0 r0_1) (View.ld x1 r0_2)⟩] x
  rw [e1] at key
  rw [key]
  exact congrArg x0 e1

end Cert.KernelIdeal.BlockResult

end
-- ==== Proof.ArrayResult.lean ====
/-
  From blocks to the whole array. The grid has 64 points; point `t` works on rows 256·t … 256·t + 255 of `pq` — all
  4096 columns — reads the whole coefficient vector, and writes back the same rows of the output. Inside its block
  the point computes the half kick (BlockResult), and since a block is made of whole rows, "column k" inside the block
  is column k of the array: what point `t` writes back is exactly block `t` of `HalfKick.result` of the two argument
  arrays. Row `r` lies in the block of point `r / 256`, so the 64 blocks cover the array, and the output array after
  the run is `HalfKick.result` of the arguments.
-/
import proofs.«167230_j47167330845364_1_alg».proof.Proof.Gen.KernelIdeal.Value
import proofs.«167230_j47167330845364_1_alg».proof.Proof.BlockResult

set_option maxRecDepth 16384

noncomputable section

namespace Cert.KernelIdeal.ArrayResult

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- Where each window's block sits at point `t`: the `pq` block and the output block are block `t` of the rows and
    the only block of the columns; the coefficient vector has one block. Decided over the 64 points. -/
theorem block_positions : ∀ t : Fin cfg0.N,
    win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-- What point `t` writes back is block `t` of the half kick of the two argument arrays. -/
theorem flushed_eq (c : Dev nD) (t : Fin cfg0.N) :
    (dats m 0 c).flushed 2 t = ((cfg0.win 2).blk t).view.read (Elt F)
      (Cert.HalfKick.result (F := F) (V m c main_arg0) (V m c main_arg1)) := by
  rw [Value.flushed2]
  obtain ⟨a0, a1, b0, o0, o1⟩ := block_positions t
  funext y
  have hy0 : (y 0).val < 256 := (y 0).isLt
  have hy1 : (y 1).val < 4096 := (y 1).isLt
  show out0_2 (iblk m c 0 t) (iblk m c 1 t) y
    = Cert.HalfKick.result (F := F) (V m c main_arg0) (V m c main_arg1) (((cfg0.win 2).blk t).view.emb y)
  -- the input block and the output block are the same rows of their arrays
  have same : ((cfg0.win 0).blk t).view.emb y = ((cfg0.win 2).blk t).view.emb y := by
    funext a; apply Fin.ext
    match a with
    | ⟨0, _⟩ =>
      show win0_0.index t (0 : Fin 2) * 256 + 1 * (y 0).val = win0_2.index t (0 : Fin 2) * 256 + 1 * (y 0).val
      omega
    | ⟨1, _⟩ =>
      show win0_0.index t (1 : Fin 2) * 4096 + 1 * (y 1).val = win0_2.index t (1 : Fin 2) * 4096 + 1 * (y 1).val
      omega
  by_cases h : (y 1).val < 2048
  · -- a left-half column
    let y' : S256x4096.Idx := ix2 (⟨(y 0).val, hy0⟩ : Fin 256) (⟨(y 1).val + 2048, by omega⟩ : Fin 4096)
    let k : S2048.Idx := ix1 (⟨(y 1).val, h⟩ : Fin 2048)
    refine (BlockResult.out_left (F := F) (iblk m c 0 t) (iblk m c 1 t) y y' k h rfl rfl rfl).trans ?_
    refine Eq.trans ?_ (Cert.HalfKick.result_left (F := F) (V m c main_arg0) (V m c main_arg1)
      (((cfg0.win 2).blk t).view.emb y) (((cfg0.win 0).blk t).view.emb y') (((cfg0.win 1).blk t).view.emb k)
      (by show win0_2.index t (1 : Fin 2) * 4096 + 1 * (y 1).val < 2048; omega)
      (by show win0_1.index t (0 : Fin 1) * 2048 + 1 * (y 1).val = win0_2.index t (1 : Fin 2) * 4096 + 1 * (y 1).val; omega)
      (by show win0_0.index t (0 : Fin 2) * 256 + 1 * (y 0).val = win0_2.index t (0 : Fin 2) * 256 + 1 * (y 0).val; omega)
      (by show win0_0.index t (1 : Fin 2) * 4096 + 1 * ((y 1).val + 2048)
            = win0_2.index t (1 : Fin 2) * 4096 + 1 * (y 1).val + 2048; omega)).symm
    show Cert.HalfKick.kick (V m c main_arg0 (((cfg0.win 0).blk t).view.emb y))
        (V m c main_arg1 (((cfg0.win 1).blk t).view.emb k)) (V m c main_arg0 (((cfg0.win 0).blk t).view.emb y')) = _
    rw [same]
  · -- a right-half column
    have h' : 2048 ≤ (y 1).val := Nat.not_lt.1 h
    refine (BlockResult.out_right (F := F) (iblk m c 0 t) (iblk m c 1 t) y h').trans ?_
    refine Eq.trans ?_ (Cert.HalfKick.result_right (F := F) (V m c main_arg0) (V m c main_arg1)
      (((cfg0.win 2).blk t).view.emb y)
      (by show 2048 ≤ win0_2.index t (1 : Fin 2) * 4096 + 1 * (y 1).val; omega)).symm
    show V m c main_arg0 (((cfg0.win 0).blk t).view.emb y) = _
    rw [same]

/-- An index of the array is in point `t`'s block iff each coordinate is in the block's range on its axis. -/
theorem mem_block (t : Fin cfg0.N) (i : S16384x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

/-- Every entry of the array is written back by some point: row `r` by point `r / 256`. -/
theorem covered (i : S16384x4096.Idx) :
    ∃ t : Fin cfg0.N, (cfg0.win 2).flush t = true ∧ i ∈ ((cfg0.win 2).blk t).view.set := by
  have hi0 : (i 0).val < 16384 := idx2_lt0 i
  have hi1 : (i 1).val < 4096 := idx2_lt1 i
  have hN : (i 0).val / 256 < cfg0.N := by
    show (i 0).val / 256 < grid0.N
    rw [N_0]; omega
  obtain ⟨-, -, -, o0, o1⟩ := block_positions ⟨(i 0).val / 256, hN⟩
  have o0' : win0_2.index ⟨(i 0).val / 256, hN⟩ (0 : Fin 2) = (i 0).val / 256 := o0
  refine ⟨⟨(i 0).val / 256, hN⟩, flush0_2 _, ?_⟩
  rw [mem_block]
  intro a
  match a with
  | ⟨0, _⟩ =>
    show win0_2.index ⟨(i 0).val / 256, hN⟩ (0 : Fin 2) * 256 ≤ (i 0).val
      ∧ (i 0).val < win0_2.index ⟨(i 0).val / 256, hN⟩ (0 : Fin 2) * 256 + 256
    omega
  | ⟨1, _⟩ =>
    show win0_2.index ⟨(i 0).val / 256, hN⟩ (1 : Fin 2) * 4096 ≤ (i 1).val
      ∧ (i 1).val < win0_2.index ⟨(i 0).val / 256, hN⟩ (1 : Fin 2) * 4096 + 4096
    omega

/-- The output array after the run is the half kick of the two argument arrays. -/
theorem final (c : Dev nD) :
    (dats m 0 c).arrAt 2 cfg0.N = Cert.HalfKick.result (F := F) (V m c main_arg0) (V m c main_arg1) :=
  (dats m 0 c).arrAt_eq_of_cover 2 (Cert.HalfKick.result (F := F) (V m c main_arg0) (V m c main_arg1))
    (fun t _ => flushed_eq m c t) covered

/-- The kernel's run: it terminates without a fault, the output array holds the half kick of the arguments as
    launched, and the arguments are unchanged. -/
theorem run : θ_run defs (onTc (τ := τ) (main (F := F))) ⟨m, fun _ => 0, ρ⟩ fun r => ∀ c : Dev nD,
      r.2.mem ((c : Thread nD τ).loc main_v0)
        = Cert.HalfKick.result (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayResult

end
-- ==== Proof.ReferenceResult.lean ====
/-
  The reference computes `HalfKick.result`. Its last operation joins two arrays of 2048 columns along the columns:
  the first is `p + a · tanh q` built from the two column slices of `pq` (columns 0 … 2047 and 2048 … 4095) and the
  coefficient vector spread over the rows, the second is the slice q again. An entry at column `k < 2048` therefore
  comes from the first piece at the same position, and an entry at column `k ≥ 2048` from the second piece at column
  `k − 2048`, which is `pq` at column `k`. The host's tanh and the vector unit's tanh are the same function on the
  extended reals.
-/
import proofs.«167230_j47167330845364_1_alg».proof.Proof.Gen.ReferenceIdeal.Read
import proofs.«167230_j47167330845364_1_alg».proof.Proof.HalfKick

noncomputable section

namespace Cert.ReferenceIdeal.RefValue

open Cert.ReferenceIdeal Cert.ReferenceIdeal.Read Idealize.ShloMosaic Idealize.ShloMosaic.ValueIdx

/-- The reference's result, as the stage the run ends with, is `result` of the two arguments. -/
theorem stage_eq_result (x0 : (⟨S16384x4096, .f32⟩ : BufTy).Contents (Elt Ideal))
    (x1 : (⟨S2048, .f32⟩ : BufTy).Contents (Elt Ideal)) :
    val_main_v7 (F := Ideal) x0 x1 = Cert.HalfKick.result (F := Ideal) x0 x1 := by
  funext j
  unfold val_main_v7
  have hj0 : (j 0).val < 16384 := idx2_lt0 j
  have hj1 : (j 1).val < 4096 := idx2_lt1 j
  by_cases h : (j 1).val < 2048
  · -- a left-half column: the first piece at the same position
    let i : S16384x2048.Idx := ix2 (⟨(j 0).val, hj0⟩ : Fin 16384) (⟨(j 1).val, h⟩ : Fin 2048)
    rw [concatenate_pair_apply_left (t := S16384x4096) (s₁ := S16384x2048) (s₂ := S16384x2048) (1 : Fin 2) _ _ _ j rfl i
      (fun b => by match b with | ⟨0, _⟩ => rfl | ⟨1, _⟩ => rfl)]
    rw [val_main_v6_apply, val_main_v5_apply, val_main_v4_apply, val_main_v3_apply, val_main_v2_apply,
      val_main_v1_apply, val_main_v0_apply]
    rw [Cert.HalfKick.result_left (F := Ideal) x0 x1 j (idx_main_v1 i) (idx_main_v3 (idx_main_v4 i)) h rfl rfl
      (by show 2048 + (j 1).val = (j 1).val + 2048; omega)]
    have e0 : idx_main_v0 i = j :=
      funext fun a => Fin.ext (by match a with | ⟨0, _⟩ => rfl | ⟨1, _⟩ => rfl)
    rw [e0]
    rfl
  · -- a right-half column: the second piece at column k − 2048, that is `pq` at column k
    have h' : 2048 ≤ (j 1).val := Nat.not_lt.1 h
    let i : S16384x2048.Idx := ix2 (⟨(j 0).val, hj0⟩ : Fin 16384) (⟨(j 1).val - 2048, by omega⟩ : Fin 2048)
    rw [concatenate_pair_apply_right (t := S16384x4096) (s₁ := S16384x2048) (s₂ := S16384x2048) (1 : Fin 2) _ _ _ j rfl rfl i
      (fun b hb => by match b, hb with | ⟨0, _⟩, _ => rfl | ⟨1, _⟩, hb => exact absurd rfl hb)
      (by show (j 1).val - 2048 + 2048 = (j 1).val; omega)]
    rw [val_main_v1_apply, Cert.HalfKick.result_right (F := Ideal) x0 x1 j h']
    exact congrArg x0 (funext fun a => Fin.ext (by
      match a with
      | ⟨0, _⟩ => rfl
      | ⟨1, _⟩ => show 2048 + ((j 1).val - 2048) = (j 1).val; omega))

end Cert.ReferenceIdeal.RefValue

end
-- ==== Proof.lean ====
/-
  The kernel and its reference both compute the "half kick" of an array `pq` of 16384 rows, each row a pair (p, q)
  of two halves of 2048 entries, by a coefficient vector `a` of 2048 entries:

      out(r, k) = p(r, k) + a(k) · tanh(q(r, k))   for k < 2048,        out(r, 2048 + k) = q(r, k)

  (`HalfKick.result`). The reference slices p and q out of `pq`, spreads `a` over the rows, forms `p + a · tanh q`
  and joins it with q along the columns (`ReferenceResult`). The kernel cuts the rows into 64 blocks of 256 whole rows;
  each grid point computes the same expression on its block's two halves and writes both halves of its output block
  (`BlockResult`), and the 64 blocks tile the array (`ArrayResult`). Both sides apply the same operations to the same
  entries in the same order — there is no sum and no regrouping — so the two results are equal on every extended
  real, infinities included: the finiteness of the inputs is never used. The tanh of the vector unit and the tanh of
  the host are one function on the extended reals.

  The kernel's idealization rewrote no operation, so there is nothing to preserve beyond the program's own text.
-/
import proofs.«167230_j47167330845364_1_alg».proof.Defs
import proofs.«167230_j47167330845364_1_alg».proof.Proof.Gen.Kernel
import proofs.«167230_j47167330845364_1_alg».proof.Proof.Gen.Kernel.Frame
import proofs.«167230_j47167330845364_1_alg».proof.Proof.Gen.KernelIdeal
import proofs.«167230_j47167330845364_1_alg».proof.Proof.Gen.KernelIdeal.Frame
import proofs.«167230_j47167330845364_1_alg».proof.Proof.Gen.KernelIdeal.Value
import proofs.«167230_j47167330845364_1_alg».proof.Proof.Gen.ReferenceIdeal
import proofs.«167230_j47167330845364_1_alg».proof.Proof.Gen.ReferenceIdeal.Run
import proofs.«167230_j47167330845364_1_alg».proof.Proof.Gen.ReferenceIdeal.Read
import proofs.«167230_j47167330845364_1_alg».proof.Proof.Gen.Pre_finite_inputs
import proofs.«167230_j47167330845364_1_alg».proof.Proof.ArrayResult
import proofs.«167230_j47167330845364_1_alg».proof.Proof.ReferenceResult
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the statement about its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on `pq` and `a`, both programs end with the half kick of `pq` by `a`. -/
theorem algebraic : Cert.algebraic_KernelIdeal_ReferenceIdeal := by
  intro m ρ m' ρ' _ hagree
  refine ⟨_, Cert.KernelIdeal.ArrayResult.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.stage_eq_result,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
